-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S2048x1024 : Shape := ⟨2, ![2048, 1024]⟩
abbrev S512x1024 : Shape := ⟨2, ![512, 1024]⟩
abbrev S1x512 : Shape := ⟨2, ![1, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x1024.size a
  hwx0_3 : ∀ i : grid0.Coords, EltTy.bits .f32 = 32 ∨ (Rect.block (s := S16384x1024) S2048x512.size (cc0_transform_3 i) (hinb0_3 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Layer.lean ====
/-
  The dense layer that both programs compute, as ONE function of the three argument arrays, index by index over the
  extended reals:

      out[n, o] = Σ_{k < 1024} x[n, k] · W[o, k] + b[o]        (n < 16384, o < 1024).

  Row `n` of `x` is paired with ROW `o` of `W` (the weight is stored output-major, as a linear layer keeps it), so the
  contraction runs along the second axis of both operands. Nothing here depends on a program: the two bridges (the
  kernel's blocks, the reference's operations) each show their side is this function.
-/
import Idealize.ShloMosaic.PureOps.Ideal
import Idealize.ShloMosaic.Lib.ValueIdx

noncomputable section

open scoped BigOperators

namespace Cert.Dense

open Idealize.ShloMosaic Idealize.ShloMosaic.ValueIdx

/-- The layer's output at index `i = (n, o)`: the inner product of row `n` of `x` with row `o` of `w`, plus `b` at `o`. -/
def layer (x : (⟨2, ![16384, 1024]⟩ : Shape).Idx → EReal) (w : (⟨2, ![1024, 1024]⟩ : Shape).Idx → EReal)
    (b : (⟨1, ![1024]⟩ : Shape).Idx → EReal) : (⟨2, ![16384, 1024]⟩ : Shape).Idx → EReal :=
  fun i => (∑ k : Fin 1024, x (ix2 (i 0) k) * w (ix2 (i 1) k)) + b (ix1 (i 1))

/-- The same, at explicit coordinates. -/
theorem layer_ix2 (x : (⟨2, ![16384, 1024]⟩ : Shape).Idx → EReal) (w : (⟨2, ![1024, 1024]⟩ : Shape).Idx → EReal)
    (b : (⟨1, ![1024]⟩ : Shape).Idx → EReal) (n : Fin 16384) (o : Fin 1024) :
    layer x w b (ix2 n o) = (∑ k : Fin 1024, x (ix2 n k) * w (ix2 o k)) + b (ix1 o) := rfl

end Cert.Dense

end
-- ==== Proof.Body.lean ====
/-
  The kernel body's arithmetic at one output element. At a grid point the body holds a [2048, 1024] block of `x`, a
  [512, 1024] block of `W` and a [1, 512] block of the bias row, and stores

      block[p, q] = Σ_{k < 1024} xblk[p, k] · wblk[q, k] + bblk[0, q]        (p < 2048, q < 512):

  the matrix product contracts the SECOND axis of both blocks into a zero accumulator, so at the exact reals it is just
  that sum; the bias block's shape cast is the identity and its broadcast over the 2048 rows reads row 0.
  `block_entry` then says: if the three blocks hold row `n` of an array `X`, row `o` of an array `W` and entry `o` of a
  vector `b`, the stored element is the dense layer of `X`, `W`, `b` at `(n, o)`.
-/
import proofs.«166077_g6536940225161_cont_9to1_m_867_8_alg».proof.Proof.Gen.KernelIdeal.Skeleton
import proofs.«166077_g6536940225161_cont_9to1_m_867_8_alg».proof.Proof.Layer
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Dense

/-- The product's left operand index at output `(p, q)` keeps the output's row `p` on its free axis. -/
theorem lhs_free (j : S2048x512.Idx) (r : dot_S2048x1024_S512x1024_S2048x512_1_1_0_0_n_n.contr.Idx) :
    (dot_S2048x1024_S512x1024_S2048x512_1_1_0_0_n_n.lhsIdx j r 0).val = (j 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl

/-- The right operand's free axis is its FIRST (the weight block is stored output-major): it carries the output's column `q`. -/
theorem rhs_free (j : S2048x512.Idx) (r : dot_S2048x1024_S512x1024_S2048x512_1_1_0_0_n_n.contr.Idx) :
    (dot_S2048x1024_S512x1024_S2048x512_1_1_0_0_n_n.rhsIdx j r 0).val = (j 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl

/-- The blocks' product into a zero accumulator, at `(p, q)`: row `p` of the left block against row `q` of the right. -/
theorem product_apply (x0 : FVec Ideal S2048x1024 .f32) (x1 : FVec Ideal S512x1024 .f32) (p : Fin 2048) (q : Fin 512) :
    FloatOps.matmul dot_S2048x1024_S512x1024_S2048x512_1_1_0_0_n_n none x0 x1 (constant (F := Ideal) S2048x512 .f32 0x00000000#32) (ix2 p q)
      = ∑ k : Fin 1024, x0 (ix2 p k) * x1 (ix2 q k) := by
  rw [Ideal.matmul_constant_zero_apply,
    ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p q)
      ((contrEquiv1 dot_S2048x1024_S512x1024_S2048x512_1_1_0_0_n_n 1024 rfl rfl).symm k) = ix2 p k :=
    funext fun a => Fin.ext (by
      match a with
      | ⟨0, _⟩ => exact lhs_free _ _
      | ⟨1, _⟩ => exact (dot_S2048x1024_S512x1024_S2048x512_1_1_0_0_n_n.lhsIdx_val_of_single rfl _ _).trans hk)
  have er : dot_S2048x1024_S512x1024_S2048x512_1_1_0_0_n_n.rhsIdx (ix2 p q)
      ((contrEquiv1 dot_S2048x1024_S512x1024_S2048x512_1_1_0_0_n_n 1024 rfl rfl).symm k) = ix2 q k :=
    funext fun a => Fin.ext (by
      match a with
      | ⟨0, _⟩ => exact rhs_free _ _
      | ⟨1, _⟩ => exact (dot_S2048x1024_S512x1024_S2048x512_1_1_0_0_n_n.rhsIdx_val_of_single rfl _ _).trans hk)
  rw [el, er]

/-- The stored value at `(p, q)`: the product there plus the bias block's one row at `q`. -/
theorem payload_apply (x0 : FVec Ideal S2048x1024 .f32) (x1 : FVec Ideal S512x1024 .f32) (x2 : FVec Ideal S1x512 .f32)
    (p : Fin 2048) (q : Fin 512) :
    k0_pay1 (F := Ideal) x0 x1 x2 (ix2 p q) = (∑ k : Fin 1024, x0 (ix2 p k) * x1 (ix2 q k)) + x2 (ix2 (0 : Fin 1) q) := by
  unfold k0_pay1
  exact congrArg₂ (· + ·) (product_apply x0 x1 p q)
    ((broadcastTo_1b_ab_apply _ broadcasts_S1x512_S2048x512 p q).trans
      (congrFun (shapeCast_self x2 shapeCasts_S1x512_S1x512) _))

/-- When the blocks hold row `n` of `X`, row `o` of `W` and entry `o` of `b`, the stored element is the layer at `(n, o)`. -/
theorem block_entry (X : (⟨2, ![16384, 1024]⟩ : Shape).Idx → EReal) (W : (⟨2, ![1024, 1024]⟩ : Shape).Idx → EReal)
    (b : (⟨1, ![1024]⟩ : Shape).Idx → EReal)
    (x0 : FVec Ideal S2048x1024 .f32) (x1 : FVec Ideal S512x1024 .f32) (x2 : FVec Ideal S1x512 .f32)
    (n : Fin 16384) (o : Fin 1024) (p : Fin 2048) (q : Fin 512)
    (h0 : ∀ k : Fin 1024, x0 (ix2 p k) = X (ix2 n k))
    (h1 : ∀ k : Fin 1024, x1 (ix2 q k) = W (ix2 o k))
    (h2 : x2 (ix2 (0 : Fin 1) q) = b (ix1 o)) :
    k0_pay1 (F := Ideal) x0 x1 x2 (ix2 p q) = layer X W b (ix2 n o) := by
  rw [payload_apply, layer_ix2, h2]
  exact congrArg (· + b (ix1 o)) (Finset.sum_congr rfl fun k _ => by rw [h0 k, h1 k])

end Cert.KernelIdeal.Body

end
-- ==== Proof.Whole.lean ====
/-
  From blocks to the whole array. The grid has 8 × 2 points; point `(i, j)` holds rows [2048·i, 2048·i + 2048) of `x`
  (all 1024 columns), rows [512·j, 512·j + 512) of `W` (all 1024 columns) and columns [512·j, 512·j + 512) of the bias
  row, and writes back the [2048, 512] block of the output at block index `(i, j)`. So the element the point stores at
  `(p, q)` of its block sits at `(n, o) = (2048·i + p, 512·j + q)` of the output, and the three blocks hold there row `n` of
  `x`, row `o` of `W` and entry `o` of `b` (the bias row is `b` with a unit axis put in front, by a host reshape before
  the launch): the stored element is the dense layer at `(n, o)`. The 16 blocks tile the [16384, 1024] output — the
  point covering `(n, o)` is `(n / 2048, o / 512)` — so after the run the output array IS the layer of the arguments.
-/
import proofs.«166077_g6536940225161_cont_9to1_m_867_8_alg».proof.Proof.Gen.KernelIdeal.Value
import proofs.«166077_g6536940225161_cont_9to1_m_867_8_alg».proof.Proof.Body
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The bias row the region finds is the argument `b` with a unit axis in front: the one host operation before the launch. -/
theorem bias_row (c : Dev nD) :
    (V m c main_call0_v0 : S1x1024.Idx → EReal)
      = shapeCast S1x1024 (m ((c : Thread nD τ).loc main_arg2)) shapeCasts_S1024_S1x1024 := by
  dsimp only [Gen.V, Gen.hostOps0]
  after_results
  rfl

/-- The four index maps over the 16 grid points: `x`'s block follows the output's block row and is never offset in columns;
    `W`'s block row and the bias block's column follow the output's block COLUMN; the output's block index stays in 8 × 2. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 1 :=
  (by decide +kernel : ∀ t : Fin grid0.N, _)

/-- Every block index of the 8 × 2 box is some point's. -/
theorem every_block : ∀ (q0 : Fin 8) (q1 : Fin 2), ∃ t : Fin cfg0.N, win0_3.index t = ![q0.val, q1.val] :=
  (by decide +kernel : ∀ (q0 : Fin 8) (q1 : Fin 2), ∃ t : Fin grid0.N, win0_3.index t = ![q0.val, q1.val])

/-- What point `t` writes back is block `t` of the layer of the argument arrays. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S2048x1024) origin, View.ld_unit_zero (S := S512x1024) origin,
    View.ld_unit_zero (S := S1x512) origin]
  obtain ⟨e00, e01, e10, e11, e20, e21, b0, b1⟩ := index_maps t
  funext j
  obtain ⟨p, q, rfl⟩ : ∃ (p : Fin 2048) (q : Fin 512), j = ix2 p q := ⟨j 0, j 1, eq_ix2 j⟩
  have hp : p.val < 2048 := p.isLt
  have hq : q.val < 512 := q.isLt
  have hn : win0_3.index t (0 : Fin 2) * 2048 + 1 * p.val < 16384 := by omega
  have ho : win0_3.index t (1 : Fin 2) * 512 + 1 * q.val < 1024 := by omega
  show k0_pay1 (iblk m c 0 t) (iblk m c 1 t) (iblk m c 2 t) (ix2 p q)
    = layer _ _ _ (((cfg0.win 3).blk t).view.emb (ix2 p q))
  -- the stored element's place in the output array
  have hemb : ((cfg0.win 3).blk t).view.emb (ix2 p q) = ix2 (⟨_, hn⟩ : Fin 16384) (⟨_, ho⟩ : Fin 1024) :=
    funext fun a => Fin.ext (by match a with | ⟨0, _⟩ => rfl | ⟨1, _⟩ => rfl)
  rw [hemb]
  refine Body.block_entry _ _ _ (iblk m c 0 t) (iblk m c 1 t) (iblk m c 2 t) ⟨_, hn⟩ ⟨_, ho⟩ p q
    (fun k => ?_) (fun k => ?_) ?_
  · -- row p of x's block is row n of x
    show V m c main_arg0 (((cfg0.win 0).blk t).view.emb (ix2 p k)) = _
    rw [V_main_arg0]
    refine congrArg _ (funext fun a => Fin.ext ?_)
    match a with
    | ⟨0, _⟩ =>
      show win0_0.index t (0 : Fin 2) * 2048 + 1 * p.val = win0_3.index t (0 : Fin 2) * 2048 + 1 * p.val
      omega
    | ⟨1, _⟩ =>
      show win0_0.index t (1 : Fin 2) * 1024 + 1 * k.val = k.val
      omega
  · -- row q of W's block is row o of W
    show V m c main_arg1 (((cfg0.win 1).blk t).view.emb (ix2 q k)) = _
    rw [V_main_arg1]
    refine congrArg _ (funext fun a => Fin.ext ?_)
    match a with
    | ⟨0, _⟩ =>
      show win0_1.index t (0 : Fin 2) * 512 + 1 * q.val = win0_3.index t (1 : Fin 2) * 512 + 1 * q.val
      omega
    | ⟨1, _⟩ =>
      show win0_1.index t (1 : Fin 2) * 1024 + 1 * k.val = k.val
      omega
  · -- entry q of the bias block is entry o of b
    show V m c main_call0_v0 (((cfg0.win 2).blk t).view.emb (ix2 (0 : Fin 1) q)) = _
    have hu : win0_2.index t (0 : Fin 2) * 1 + 1 * 0 < 1 := by omega
    have hrow : ((cfg0.win 2).blk t).view.emb (ix2 (0 : Fin 1) q) = ix2 (⟨_, hu⟩ : Fin 1) (⟨_, ho⟩ : Fin 1024) :=
      funext fun a => Fin.ext (by
        match a with
        | ⟨0, _⟩ => rfl
        | ⟨1, _⟩ =>
          show win0_2.index t (1 : Fin 2) * 512 + 1 * q.val = win0_3.index t (1 : Fin 2) * 512 + 1 * q.val
          omega)
    rw [hrow, bias_row]
    exact shapeCast_a_1a_apply _ _ _ _

/-- An output index is in point `t`'s block iff each coordinate is in the block's range on its axis. -/
theorem mem_blk (t : Fin cfg0.N) (i : S16384x1024.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v0).slice (win0_3.rect t)).set ↔ _
  rw [View.set_slice_whole, Rect.mem_set_unit]
  exact Iff.rfl

/-- The blocks tile the output: index `(n, o)` is in the block of the point with block index `(n / 2048, o / 512)`. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := every_block ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- The output array after the run is the layer of the argument arrays. -/
theorem final (c : Dev nD) :
    (dats m 0 c).arrAt 3 cfg0.N
      = layer (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: it terminates with the output at the layer of the arguments and the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefLayer.lean ====
/-
  The reference is the dense layer. Its five host operations — transpose `W`; contract `x`'s second axis with the
  transposed weight's first; lift `b` to a [1, 1024] row; spread the row over the 16384 rows; add — read at an index
  `(n, o)` give Σ_k x[n, k] · Wᵀ[k, o] + b[o], and Wᵀ[k, o] is W[o, k]: the layer, term by term.
-/
import proofs.«166077_g6536940225161_cont_9to1_m_867_8_alg».proof.Proof.Gen.ReferenceIdeal.Read
import proofs.«166077_g6536940225161_cont_9to1_m_867_8_alg».proof.Proof.Layer

noncomputable section

open scoped BigOperators

namespace Cert.ReferenceIdeal.RefLayer

open Cert.ReferenceIdeal Cert.ReferenceIdeal.Gen Cert.ReferenceIdeal.Read Idealize.ShloMosaic Idealize.ShloMosaic.ValueIdx Cert.Dense

/-- The product's left factor sits at `(n, k)` of `x`. -/
theorem left_index (i : S16384x1024.Idx) (k : Fin 1024) : lidx_main_v1 i k = ix2 (i 0) k :=
  funext fun a => Fin.ext (by match a with | ⟨0, _⟩ => rfl | ⟨1, _⟩ => rfl)

/-- Its right factor sits at `(k, o)` of the transposed weight, which is `(o, k)` of `W`. -/
theorem right_index (i : S16384x1024.Idx) (k : Fin 1024) : idx_main_v0 (ridx_main_v1 i k) = ix2 (i 1) k :=
  funext fun a => Fin.ext (by match a with | ⟨0, _⟩ => rfl | ⟨1, _⟩ => rfl)

/-- The bias spread over the rows is read at the output's column. -/
theorem bias_index (i : S16384x1024.Idx) : idx_main_v2 (idx_main_v3 i) = ix1 (i 1) :=
  funext fun a => Fin.ext (by match a with | ⟨0, _⟩ => rfl)

/-- The reference's result, as a function of its three arguments, is the layer. -/
theorem result_eq (x0 : (⟨S16384x1024, .f32⟩ : BufTy).Contents (Elt Ideal)) (x1 : (⟨S1024x1024, .f32⟩ : BufTy).Contents (Elt Ideal))
    (x2 : (⟨S1024, .f32⟩ : BufTy).Contents (Elt Ideal)) :
    val_main_v4 (F := Ideal) x0 x1 x2 = layer x0 x1 x2 := by
  funext i
  rw [val_main_v4_apply, val_main_v1_apply, val_main_v3_apply, val_main_v2_apply, bias_index]
  simp only [val_main_v0_apply, left_index, right_index]
  rfl

end Cert.ReferenceIdeal.RefLayer

end
-- ==== Proof.lean ====
/-
  The certificate of a dense layer: a Pallas kernel computing  out[n, o] = Σ_{k < 1024} x[n, k] · W[o, k] + b[o]  for
  x : [16384, 1024], W : [1024, 1024], b : [1024], against jnp's  dot(x, Wᵀ) + b.

  The kernel tiles the output into 8 × 2 blocks of [2048, 512]; each grid point multiplies a [2048, 1024] row block of `x`
  by a [512, 1024] row block of `W`, contracting the second axis of both over all 1024 terms at once into a zero accumulator,
  and adds a [1, 512] piece of the bias row spread over the rows. The reference transposes `W`, contracts `x`'s second axis
  with the transpose's first, and adds `b` spread over the rows. At the exact (extended-real) values both are the same sum
  of the same 1024 products in the same index, plus the same bias entry: no rearrangement of a sum and no law that could
  fail at an infinity is used, so the finiteness of the inputs is never opened.

  `Proof/Layer.lean` states that function; `Proof/Body.lean` reads the kernel body's stored element; `Proof/Whole.lean`
  places each point's block in the output and shows the blocks tile it; `Proof/RefLayer.lean` reads the reference's five
  operations at an index. The three frames are the generated runs; the idealization rewrote nothing, so `preserves` is `True`.
-/
import proofs.«166077_g6536940225161_cont_9to1_m_867_8_alg».proof.Defs
import proofs.«166077_g6536940225161_cont_9to1_m_867_8_alg».proof.Proof.Gen.Kernel
import proofs.«166077_g6536940225161_cont_9to1_m_867_8_alg».proof.Proof.Gen.Kernel.Skeleton
import proofs.«166077_g6536940225161_cont_9to1_m_867_8_alg».proof.Proof.Gen.Kernel.Launch
import proofs.«166077_g6536940225161_cont_9to1_m_867_8_alg».proof.Proof.Gen.Kernel.Points
import proofs.«166077_g6536940225161_cont_9to1_m_867_8_alg».proof.Proof.Gen.Kernel.Frame
import proofs.«166077_g6536940225161_cont_9to1_m_867_8_alg».proof.Proof.Gen.KernelIdeal
import proofs.«166077_g6536940225161_cont_9to1_m_867_8_alg».proof.Proof.Gen.KernelIdeal.Skeleton
import proofs.«166077_g6536940225161_cont_9to1_m_867_8_alg».proof.Proof.Gen.KernelIdeal.Launch
import proofs.«166077_g6536940225161_cont_9to1_m_867_8_alg».proof.Proof.Gen.KernelIdeal.Points
import proofs.«166077_g6536940225161_cont_9to1_m_867_8_alg».proof.Proof.Gen.KernelIdeal.Frame
import proofs.«166077_g6536940225161_cont_9to1_m_867_8_alg».proof.Proof.Gen.ReferenceIdeal
import proofs.«166077_g6536940225161_cont_9to1_m_867_8_alg».proof.Proof.Gen.Pre_finite_inputs
import proofs.«166077_g6536940225161_cont_9to1_m_867_8_alg».proof.Proof.Gen.KernelIdeal.Value
import proofs.«166077_g6536940225161_cont_9to1_m_867_8_alg».proof.Proof.Gen.ReferenceIdeal.Run
import proofs.«166077_g6536940225161_cont_9to1_m_867_8_alg».proof.Proof.Gen.ReferenceIdeal.Read
import proofs.«166077_g6536940225161_cont_9to1_m_867_8_alg».proof.Proof.Whole
import proofs.«166077_g6536940225161_cont_9to1_m_867_8_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `W` and `b`, both programs end with the dense layer of those arrays in their result. -/
theorem algebraic : Cert.algebraic_KernelIdeal_ReferenceIdeal := by
  intro m ρ m' ρ' _ hagree
  refine ⟨fun c => Cert.Dense.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefLayer.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
